-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S2x1048576 : Shape := ⟨2, ![2, 1048576]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S2x1600000 32) (main_arg6 : IVec S2x1048576 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S2x1048576 : Shape := ⟨2, ![2, 1048576]⟩
abbrev S1x1600000 : Shape := ⟨2, ![1, 1600000]⟩
abbrev S1600000 : Shape := ⟨1, ![1600000]⟩
abbrev S5000x128 : Shape := ⟨2, ![5000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S1x1048576 : Shape := ⟨2, ![1, 1048576]⟩
abbrev S1048576 : Shape := ⟨1, ![1048576]⟩
abbrev S1048576x1 : Shape := ⟨2, ![1048576, 1]⟩
abbrev S1048576x64 : Shape := ⟨2, ![1048576, 64]⟩
abbrev S8192x64 : Shape := ⟨2, ![8192, 64]⟩
abbrev S8192 : Shape := ⟨1, ![8192]⟩

abbrev nBuf : Space → Nat
  | .hbm => 135
  | .vmem => 16
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x64, .f32⟩
  | 4 => ⟨S64, .f32⟩
  | 5 => ⟨S2x1600000, .i32⟩
  | 6 => ⟨S2x1048576, .i32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S1700000x1, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x128, .f32⟩
  | 51 => ⟨S1700000x128, .f32⟩
  | 52 => ⟨S1700000x128, .f32⟩
  | 53 => ⟨S_, .f32⟩
  | 54 => ⟨S100000x128, .f32⟩
  | 55 => ⟨S1700000x1, .i32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x64, .f32⟩
  | 64 => ⟨S100000, .i32⟩
  | 65 => ⟨S1700000, .i32⟩
  | 66 => ⟨S1700000, .i32⟩
  | 67 => ⟨S_, .f32⟩
  | 68 => ⟨S1700000, .f32⟩
  | 69 => ⟨S_, .f32⟩
  | 70 => ⟨S100000, .f32⟩
  | 71 => ⟨S1700000x1, .i32⟩
  | 72 => ⟨S100000, .f32⟩
  | 73 => ⟨S100000, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S1700000, .f32⟩
  | 93 => ⟨S1700000x1, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x64, .f32⟩
  | 103 => ⟨S1700000x64, .f32⟩
  | 104 => ⟨S1700000x64, .f32⟩
  | 105 => ⟨S_, .f32⟩
  | 106 => ⟨S100000x64, .f32⟩
  | 107 => ⟨S1700000x1, .i32⟩
  | 108 => ⟨S100000x64, .f32⟩
  | 109 => ⟨S1x64, .f32⟩
  | 110 => ⟨S100000x64, .f32⟩
  | 111 => ⟨S100000x64, .f32⟩
  | 112 => ⟨S1x1048576, .i32⟩
  | 113 => ⟨S1048576, .i32⟩
  | 114 => ⟨S_, .i32⟩
  | 115 => ⟨S1048576, .i32⟩
  | 116 => ⟨S1048576, .i1⟩
  | 117 => ⟨S_, .i32⟩
  | 118 => ⟨S1048576, .i32⟩
  | 119 => ⟨S1048576, .i32⟩
  | 120 => ⟨S1048576, .i32⟩
  | 121 => ⟨S1048576x1, .i32⟩
  | 122 => ⟨S1048576x64, .f32⟩
  | 123 => ⟨S1x1048576, .i32⟩
  | 124 => ⟨S1048576, .i32⟩
  | 125 => ⟨S_, .i32⟩
  | 126 => ⟨S1048576, .i32⟩
  | 127 => ⟨S1048576, .i1⟩
  | _ => ⟨S100000x128, .f32⟩

abbrev hbmTy0_1 (i : Nat) : BufTy := match i % 128 with
  | 0 => ⟨S_, .i32⟩
  | 1 => ⟨S1048576, .i32⟩
  | 2 => ⟨S1048576, .i32⟩
  | 3 => ⟨S1048576, .i32⟩
  | 4 => ⟨S1048576x1, .i32⟩
  | 5 => ⟨S1048576x64, .f32⟩
  | 6 => ⟨S1048576, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S8192x64, .f32⟩
  | .local _ .vmem, ⟨11, _⟩ => ⟨S8192x64, .f32⟩
  | .local _ .vmem, ⟨12, _⟩ => ⟨S8192x64, .f32⟩
  | .local _ .vmem, ⟨13, _⟩ => ⟨S8192x64, .f32⟩
  | .local _ .vmem, ⟨14, _⟩ => ⟨S8192, .f32⟩
  | .local _ .vmem, ⟨15, _⟩ => ⟨S8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_16 : Ref sig .tc := ⟨.hbm, 114, rfl⟩
abbrev main_v87 : Ref sig .tc := ⟨.hbm, 115, rfl⟩
abbrev main_v88 : Ref sig .tc := ⟨.hbm, 116, rfl⟩
abbrev main_c_17 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_18 : Ref sig .tc := ⟨.hbm, 125, rfl⟩
abbrev main_v96 : Ref sig .tc := ⟨.hbm, 126, rfl⟩
abbrev main_v97 : Ref sig .tc := ⟨.hbm, 127, rfl⟩
abbrev main_c_19 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1048576_S1x1048576_0_0 : S2x1048576.Slices ![0, 0] S1x1048576
  shapeCasts_S1x1048576_S1048576 : S1x1048576.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  slices_S2x1048576_S1x1048576_1_0 : S2x1048576.Slices ![1, 0] S1x1048576
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  inb_S8192_S8192_0 : ∀ a, (![0] : Fin 1 → Nat) a + S8192.size a ≤ S8192.size a
  h_S8192 : 0 < S8192.numel
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1048576x1_S1048576x64_1_0_n_n_0_1_164_wf : GatherDims.WF S100000x64 S1048576x1 S1048576x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S1048576x64.size a
  hwx2_0 : ∀ i : grid2.Coords, EltTy.bits .f32 = 32 ∨ (Rect.block (s := S1048576x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S1048576x64.size a
  hwx2_1 : ∀ i : grid2.Coords, EltTy.bits .f32 = 32 ∨ (Rect.block (s := S1048576x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192.size a ≤ S1048576.size a
  hwx2_2 : ∀ i : grid2.Coords, EltTy.bits .f32 = 32 ∨ (Rect.block (s := S1048576) S8192.size (cc2_transform_2 i) (hinb2_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1048576x1_S1048576x64_1_0_n_n_0_1_164 : GatherDims S100000x64 S1048576x1 S1048576x64 where
  offsetDims := [1]
  collapsedSliceDims := [0]
  operandBatchingDims := []
  startIndicesBatchingDims := []
  startIndexMap := [0]
  indexVectorDim := 1
  sliceSizes := ![1, 64]
  wf := gather_S100000x64_S1048576x1_S1048576x64_1_0_n_n_0_1_164_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v93) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v102) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v103) S8192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S2x1048576 : Shape := ⟨2, ![2, 1048576]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1x1048576 : Shape := ⟨2, ![1, 1048576]⟩
abbrev S1048576 : Shape := ⟨1, ![1048576]⟩
abbrev S1048576x1 : Shape := ⟨2, ![1048576, 1]⟩
abbrev S1048576x64 : Shape := ⟨2, ![1048576, 64]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x64, .f32⟩
  | 4 => ⟨S64, .f32⟩
  | 5 => ⟨S2x1600000, .i32⟩
  | 6 => ⟨S2x1048576, .i32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S1700000x1, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x128, .f32⟩
  | 51 => ⟨S1700000x128, .f32⟩
  | 52 => ⟨S1700000x128, .f32⟩
  | 53 => ⟨S_, .f32⟩
  | 54 => ⟨S100000x128, .f32⟩
  | 55 => ⟨S1700000x1, .i32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x64, .f32⟩
  | 64 => ⟨S100000, .i32⟩
  | 65 => ⟨S1700000, .i32⟩
  | 66 => ⟨S1700000, .i32⟩
  | 67 => ⟨S_, .f32⟩
  | 68 => ⟨S1700000, .f32⟩
  | 69 => ⟨S_, .f32⟩
  | 70 => ⟨S100000, .f32⟩
  | 71 => ⟨S1700000x1, .i32⟩
  | 72 => ⟨S100000, .f32⟩
  | 73 => ⟨S100000, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S1700000, .f32⟩
  | 93 => ⟨S1700000x1, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x64, .f32⟩
  | 103 => ⟨S1700000x64, .f32⟩
  | 104 => ⟨S1700000x64, .f32⟩
  | 105 => ⟨S_, .f32⟩
  | 106 => ⟨S100000x64, .f32⟩
  | 107 => ⟨S1700000x1, .i32⟩
  | 108 => ⟨S100000x64, .f32⟩
  | 109 => ⟨S1x64, .f32⟩
  | 110 => ⟨S100000x64, .f32⟩
  | 111 => ⟨S100000x64, .f32⟩
  | 112 => ⟨S1x1048576, .i32⟩
  | 113 => ⟨S1048576, .i32⟩
  | 114 => ⟨S_, .i32⟩
  | 115 => ⟨S1048576, .i32⟩
  | 116 => ⟨S1048576, .i1⟩
  | 117 => ⟨S_, .i32⟩
  | 118 => ⟨S1048576, .i32⟩
  | 119 => ⟨S1048576, .i32⟩
  | 120 => ⟨S1048576, .i32⟩
  | 121 => ⟨S1048576x1, .i32⟩
  | 122 => ⟨S1048576x64, .f32⟩
  | 123 => ⟨S1x1048576, .i32⟩
  | 124 => ⟨S1048576, .i32⟩
  | 125 => ⟨S_, .i32⟩
  | 126 => ⟨S1048576, .i32⟩
  | 127 => ⟨S1048576, .i1⟩
  | _ => ⟨S100000x128, .f32⟩

abbrev hbmTy0_1 (i : Nat) : BufTy := match i % 128 with
  | 0 => ⟨S_, .i32⟩
  | 1 => ⟨S1048576, .i32⟩
  | 2 => ⟨S1048576, .i32⟩
  | 3 => ⟨S1048576, .i32⟩
  | 4 => ⟨S1048576x1, .i32⟩
  | 5 => ⟨S1048576x64, .f32⟩
  | 6 => ⟨S1048576x64, .f32⟩
  | 7 => ⟨S_, .f32⟩
  | 8 => ⟨S1048576, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call0_cst : Ref sig .tc := ⟨.hbm, 60, rfl⟩
abbrev main_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_c_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_16 : Ref sig .tc := ⟨.hbm, 114, rfl⟩
abbrev main_v87 : Ref sig .tc := ⟨.hbm, 115, rfl⟩
abbrev main_v88 : Ref sig .tc := ⟨.hbm, 116, rfl⟩
abbrev main_c_17 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_18 : Ref sig .tc := ⟨.hbm, 125, rfl⟩
abbrev main_v96 : Ref sig .tc := ⟨.hbm, 126, rfl⟩
abbrev main_v97 : Ref sig .tc := ⟨.hbm, 127, rfl⟩
abbrev main_c_19 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_20 : Ref sig .tc := ⟨.hbm, 135, rfl⟩
abbrev main_v104 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1048576_S1x1048576_0_0 : S2x1048576.Slices ![0, 0] S1x1048576
  shapeCasts_S1x1048576_S1048576 : S1x1048576.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  slices_S2x1048576_S1x1048576_1_0 : S2x1048576.Slices ![1, 0] S1x1048576
  reducesTo_S1048576x64_S1048576_d1 : S1048576x64.ReducesTo [1] S1048576
  h_S_ : 0 < S_.numel
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1048576x1_S1048576x64_1_0_n_n_0_1_164_wf : GatherDims.WF S100000x64 S1048576x1 S1048576x64 [1] [0] [] [0] [] 1 ![1, 64]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1048576x1_S1048576x64_1_0_n_n_0_1_164 : GatherDims S100000x64 S1048576x1 S1048576x64 where
  offsetDims := [1]
  collapsedSliceDims := [0]
  operandBatchingDims := []
  startIndicesBatchingDims := []
  startIndexMap := [0]
  indexVectorDim := 1
  sliceSizes := ![1, 64]
  wf := gather_S100000x64_S1048576x1_S1048576x64_1_0_n_n_0_1_164_wf

class Facts : Prop extends Facts₀ where

variable [Facts]
-- ==== Proof.KernelRun.lean ====
/-
  The idealized kernel program's run with its RESULT named.

  @main is seven segments: four host stretches and three pipelined regions. The buffers' contents at each
  boundary are a fold from the launch memory: a host stretch applies its operations, a region replaces its
  arrays by what its write-backs leave. The run's last thread state holds every unscoped buffer at the last
  boundary's contents; read against the final state this gives the result buffer — the third region's output
  array — at the fold's value there, and every argument at its launch contents.
-/
import proofs.«169004_j79096117723242_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents (the fold through the segments) and the arguments end as launched. -/
theorem run : θ_run defs (onTc (τ := τ) (main (F := F))) ⟨m, fun _ => 0, ρ⟩ (fun r => ∀ c : Dev nD,
      r.2.mem ((c.tc : Thread nD τ).loc main_v103) = W7 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v103 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.Glue.lean ====
/-
  The host arithmetic of a two-layer graph convolution, as functions of the values it is applied to.

  An edge list (sources, targets) is extended by one self-loop per node. A node's degree is the number of
  extended edges that end in it; an edge's weight is the product of the inverse square roots of the degrees
  of its two ends. A layer sends a node-feature array h to the array whose row n is the sum, over the extended
  edges ending in n, of the source's row of h times the edge's weight, plus a bias row. Negative node indices
  are wrapped once by the node count before a row is fetched. The decoder fetches, for each candidate link,
  the two rows of the final embedding that its two ends name.

  These are the programs' own operations composed in the programs' own order, named so that a value that
  both programs compute by this arithmetic is carried as one term and never opened.
-/
import proofs.«169004_j79096117723242_1_alg».proof.KernelIdeal

set_option maxRecDepth 16384

noncomputable section

namespace Cert.KernelIdeal.Glue

open Idealize.ShloMosaic Cert.KernelIdeal

variable {F : FTy → Type} [FloatOps F] [Facts₀]
open Facts₀

/-- An edge-end list followed by the self-loops' ends 0, 1, …, 99999. -/
def withLoops (a : (⟨S1600000, .i32⟩ : BufTy).Contents (Elt F)) : (⟨S1700000, .i32⟩ : BufTy).Contents (Elt F) :=
  concatenate S1700000 0 [⟨S1600000, a⟩, ⟨S100000, (iotaInDim S100000 32 0)⟩] concatenates_S1600000_S100000_S1700000_d0

/-- A node index below zero is wrapped once by the node count. -/
def wrapNode (i : (⟨S1700000, .i32⟩ : BufTy).Contents (Elt F)) : (⟨S1700000, .i32⟩ : BufTy).Contents (Elt F) :=
  select (cmpi .slt i (broadcastInDim S1700000 ![] bcast_S_S1700000 (constantI S_ 32 0#32)))
    (addi i (broadcastInDim S1700000 ![] bcast_S_S1700000 (constantI S_ 32 100000#32))) i

/-- A list of indices as a one-column table. -/
def asColumn (i : (⟨S1700000, .i32⟩ : BufTy).Contents (Elt F)) : (⟨S1700000x1, .i32⟩ : BufTy).Contents (Elt F) :=
  broadcastInDim S1700000x1 ![0] bcast_S1700000_S1700000x1_0 i

/-- The inverse square root of every node's degree: ones scattered and added at the extended edges' targets. -/
def invSqrtDeg (d : (⟨S1700000, .i32⟩ : BufTy).Contents (Elt F)) : (⟨S100000, .f32⟩ : BufTy).Contents (Elt F) :=
  Host.rsqrt (Host.scatterAdd scatter_S100000_S1700000x1_S1700000_n_0_0_1
    (broadcastInDim S100000 ![] bcast_S_S100000 (constant S_ .f32 0x00000000#32)) (asColumn d)
    (broadcastInDim S1700000 ![] bcast_S_S1700000 (constant S_ .f32 0x3F800000#32)))

/-- Every extended edge's weight, as a one-column table: the two ends' inverse square root degrees multiplied. -/
def edgeWeight (s d : (⟨S1700000, .i32⟩ : BufTy).Contents (Elt F)) : (⟨S1700000x1, .f32⟩ : BufTy).Contents (Elt F) :=
  broadcastInDim S1700000x1 ![0] bcast_S1700000_S1700000x1_0
    (mulf (Host.gather gather_S100000_S1700000x1_S1700000_n_0_n_n_0_1_1 (invSqrtDeg d) (asColumn (wrapNode s)))
      (Host.gather gather_S100000_S1700000x1_S1700000_n_0_n_n_0_1_1 (invSqrtDeg d) (asColumn (wrapNode d))))

/-- The first layer's propagation of a node-feature array of width 128 along the extended edges, plus the bias. -/
def propagate128 (h : (⟨S100000x128, .f32⟩ : BufTy).Contents (Elt F)) (b : (⟨S128, .f32⟩ : BufTy).Contents (Elt F))
    (v1 v3 : (⟨S1600000, .i32⟩ : BufTy).Contents (Elt F)) : (⟨S100000x128, .f32⟩ : BufTy).Contents (Elt F) :=
  addf (Host.scatterAdd scatter_S100000x128_S1700000x1_S1700000x128_1_0_0_1
      (broadcastInDim S100000x128 ![] bcast_S_S100000x128 (constant S_ .f32 0x00000000#32)) (asColumn (withLoops v3))
      (mulf (Host.gather gather_S100000x128_S1700000x1_S1700000x128_1_0_n_n_0_1_1128 h (asColumn (wrapNode (withLoops v1))))
        (broadcastInDim S1700000x128 ![0, 1] bcast_S1700000x1_S1700000x128_0_1 (edgeWeight (withLoops v1) (withLoops v3)))))
    (broadcastInDim S100000x128 ![0, 1] bcast_S1x128_S100000x128_0_1 (broadcastInDim S1x128 ![1] bcast_S128_S1x128_1 b))

/-- The positive part, entry by entry. -/
def positivePart (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

/-- The second layer's propagation of a node-feature array of width 64 along the extended edges, plus the bias. -/
def propagate64 (z : (⟨S100000x64, .f32⟩ : BufTy).Contents (Elt F)) (b : (⟨S64, .f32⟩ : BufTy).Contents (Elt F))
    (v1 v3 : (⟨S1600000, .i32⟩ : BufTy).Contents (Elt F)) : (⟨S100000x64, .f32⟩ : BufTy).Contents (Elt F) :=
  addf (Host.scatterAdd scatter_S100000x64_S1700000x1_S1700000x64_1_0_0_1
      (broadcastInDim S100000x64 ![] bcast_S_S100000x64 (constant S_ .f32 0x00000000#32)) (asColumn (withLoops v3))
      (mulf (Host.gather gather_S100000x64_S1700000x1_S1700000x64_1_0_n_n_0_1_164 z (asColumn (wrapNode (withLoops v1))))
        (broadcastInDim S1700000x64 ![0, 1] bcast_S1700000x1_S1700000x64_0_1 (edgeWeight (withLoops v1) (withLoops v3)))))
    (broadcastInDim S100000x64 ![0, 1] bcast_S1x64_S100000x64_0_1 (broadcastInDim S1x64 ![1] bcast_S64_S1x64_1 b))

/-- A candidate-link index below zero is wrapped once by the node count. -/
def wrapLink (i : (⟨S1048576, .i32⟩ : BufTy).Contents (Elt F)) : (⟨S1048576, .i32⟩ : BufTy).Contents (Elt F) :=
  select (cmpi .slt i (broadcastInDim S1048576 ![] bcast_S_S1048576 (constantI S_ 32 0#32)))
    (addi i (broadcastInDim S1048576 ![] bcast_S_S1048576 (constantI S_ 32 100000#32))) i

/-- The embedding rows named by the candidate links' first ends. -/
def rowsAtFirstEnds (z : (⟨S100000x64, .f32⟩ : BufTy).Contents (Elt F)) (l : (⟨S2x1048576, .i32⟩ : BufTy).Contents (Elt F)) :
    (⟨S1048576x64, .f32⟩ : BufTy).Contents (Elt F) :=
  Host.gather gather_S100000x64_S1048576x1_S1048576x64_1_0_n_n_0_1_164 z
    (broadcastInDim S1048576x1 ![0] bcast_S1048576_S1048576x1_0
      (wrapLink (shapeCast _ (extractStridedSlice S1x1048576 ![0, 0] l slices_S2x1048576_S1x1048576_0_0) shapeCasts_S1x1048576_S1048576)))

/-- The embedding rows named by the candidate links' second ends. -/
def rowsAtSecondEnds (z : (⟨S100000x64, .f32⟩ : BufTy).Contents (Elt F)) (l : (⟨S2x1048576, .i32⟩ : BufTy).Contents (Elt F)) :
    (⟨S1048576x64, .f32⟩ : BufTy).Contents (Elt F) :=
  Host.gather gather_S100000x64_S1048576x1_S1048576x64_1_0_n_n_0_1_164 z
    (broadcastInDim S1048576x1 ![0] bcast_S1048576_S1048576x1_0
      (wrapLink (shapeCast _ (extractStridedSlice S1x1048576 ![1, 0] l slices_S2x1048576_S1x1048576_1_0) shapeCasts_S1x1048576_S1048576)))

/-- The sources' row of the edge table, as a list. -/
def sourcesOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The targets' row of the edge table, as a list. -/
def targetsOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The final node embedding: two propagation layers, each applied to a product of the features with a weight
    matrix (the products are parameters: each program forms them in its own way), the positive part between. -/
def embedding
    (prod1 : (⟨S100000x128, .f32⟩ : BufTy).Contents (Elt F) → (⟨S128x128, .f32⟩ : BufTy).Contents (Elt F) → (⟨S100000x128, .f32⟩ : BufTy).Contents (Elt F))
    (prod2 : (⟨S100000x128, .f32⟩ : BufTy).Contents (Elt F) → (⟨S128x64, .f32⟩ : BufTy).Contents (Elt F) → (⟨S100000x64, .f32⟩ : BufTy).Contents (Elt F))
    (x : (⟨S100000x128, .f32⟩ : BufTy).Contents (Elt F)) (w1 : (⟨S128x128, .f32⟩ : BufTy).Contents (Elt F))
    (b1 : (⟨S128, .f32⟩ : BufTy).Contents (Elt F)) (w2 : (⟨S128x64, .f32⟩ : BufTy).Contents (Elt F))
    (b2 : (⟨S64, .f32⟩ : BufTy).Contents (Elt F)) (e : (⟨S2x1600000, .i32⟩ : BufTy).Contents (Elt F)) :
    (⟨S100000x64, .f32⟩ : BufTy).Contents (Elt F) :=
  propagate64 (prod2 (positivePart (propagate128 (prod1 x w1) b1 (sourcesOf e) (targetsOf e))) w2) b2 (sourcesOf e) (targetsOf e)

/-- The link scores: the decoder (a parameter: each program forms it in its own way) applied to the embedding's
    rows at the candidate links' two ends. -/
def scores
    (prod1 : (⟨S100000x128, .f32⟩ : BufTy).Contents (Elt F) → (⟨S128x128, .f32⟩ : BufTy).Contents (Elt F) → (⟨S100000x128, .f32⟩ : BufTy).Contents (Elt F))
    (prod2 : (⟨S100000x128, .f32⟩ : BufTy).Contents (Elt F) → (⟨S128x64, .f32⟩ : BufTy).Contents (Elt F) → (⟨S100000x64, .f32⟩ : BufTy).Contents (Elt F))
    (dec : (⟨S1048576x64, .f32⟩ : BufTy).Contents (Elt F) → (⟨S1048576x64, .f32⟩ : BufTy).Contents (Elt F) → (⟨S1048576, .f32⟩ : BufTy).Contents (Elt F))
    (x : (⟨S100000x128, .f32⟩ : BufTy).Contents (Elt F)) (w1 : (⟨S128x128, .f32⟩ : BufTy).Contents (Elt F))
    (b1 : (⟨S128, .f32⟩ : BufTy).Contents (Elt F)) (w2 : (⟨S128x64, .f32⟩ : BufTy).Contents (Elt F))
    (b2 : (⟨S64, .f32⟩ : BufTy).Contents (Elt F)) (e : (⟨S2x1600000, .i32⟩ : BufTy).Contents (Elt F))
    (l : (⟨S2x1048576, .i32⟩ : BufTy).Contents (Elt F)) : (⟨S1048576, .f32⟩ : BufTy).Contents (Elt F) :=
  dec (rowsAtFirstEnds (embedding prod1 prod2 x w1 b1 w2 b2 e) l) (rowsAtSecondEnds (embedding prod1 prod2 x w1 b1 w2 b2 e) l)

end Cert.KernelIdeal.Glue

end
-- ==== Proof.Stretch.lean ====
/-
  What the kernel program's host stretches compute, as the graph-convolution arithmetic of the buffers they
  read: for ANY contents W of the buffers when a stretch is entered.
-/
import proofs.«169004_j79096117723242_1_alg».proof.Proof.Gen.KernelIdeal.Launch
import proofs.«169004_j79096117723242_1_alg».proof.Proof.Glue
import Idealize.ShloMosaic.Lib.StableHlo.Run

set_option maxRecDepth 16384

noncomputable section

namespace Cert.KernelIdeal.Stretch

open Idealize.ShloMosaic Idealize.ShloMosaic.TcCoe Idealize.ShloMosaic.StableHlo Cert.KernelIdeal Cert.KernelIdeal.Gen Cert.KernelIdeal.Glue

variable {F : FTy → Type} [FloatOps F]

/-- The first stretch leaves the edge table's two rows as lists. -/
theorem sources (W : Valuation τ sig (Elt F)) :
    after hostOps0 W (Proc.devRef .tc main_v1) = sourcesOf (W (Proc.devRef .tc main_arg5)) := by
  after_results; rfl

theorem targets (W : Valuation τ sig (Elt F)) :
    after hostOps0 W (Proc.devRef .tc main_v3) = targetsOf (W (Proc.devRef .tc main_arg5)) := by
  after_results; rfl

set_option maxHeartbeats 4000000 in
/-- The second and third stretches leave the positive part of the first layer's propagation of the first
    product. -/
theorem hidden (W : Valuation τ sig (Elt F)) :
    after hostOps1_1 (after hostOps1 W) (Proc.devRef .tc main_v44)
      = positivePart (propagate128 (W (Proc.devRef .tc main_v4)) (W (Proc.devRef .tc main_arg2))
          (W (Proc.devRef .tc main_v1)) (W (Proc.devRef .tc main_v3))) := by
  after_results_simp; rfl

set_option maxHeartbeats 8000000 in
/-- The fourth stretch leaves, for the decoder's first operand, the rows at the candidate links' first ends of
    the second layer's propagation of the second product. -/
theorem firstEnds (W : Valuation τ sig (Elt F)) :
    after hostOps2 W (Proc.devRef .tc main_v93)
      = rowsAtFirstEnds (propagate64 (W (Proc.devRef .tc main_v45)) (W (Proc.devRef .tc main_arg4))
          (W (Proc.devRef .tc main_v1)) (W (Proc.devRef .tc main_v3))) (W (Proc.devRef .tc main_arg6)) := by
  after_results_simp; rfl

set_option maxHeartbeats 8000000 in
/-- … and for its second operand the rows at the second ends. -/
theorem secondEnds (W : Valuation τ sig (Elt F)) :
    after hostOps2 W (Proc.devRef .tc main_v102)
      = rowsAtSecondEnds (propagate64 (W (Proc.devRef .tc main_v45)) (W (Proc.devRef .tc main_arg4))
          (W (Proc.devRef .tc main_v1)) (W (Proc.devRef .tc main_v3))) (W (Proc.devRef .tc main_arg6)) := by
  after_results_simp; rfl

end Cert.KernelIdeal.Stretch

end
-- ==== Proof.Fold.lean ====
/-
  The kernel program's result buffer, read back through the fold of its seven segments.

  The last region's output array is the decoder of its two input arrays; those are what the fourth host
  stretch leaves — the rows, at the candidate links' ends, of the second layer's propagation of the second
  region's output array —; that array is the second product of the positive part of the first layer's
  propagation of the first region's output array, the first product of the arguments. A buffer that a stretch
  or a region does not write keeps its contents, so the biases, the weight matrices and the edge lists reach
  each stage as launched. What each region's output array is, as a function of its two input arrays, is taken
  as a hypothesis here (one per region).
-/
import proofs.«169004_j79096117723242_1_alg».proof.Proof.Gen.KernelIdeal.Frame
import proofs.«169004_j79096117723242_1_alg».proof.Proof.Stretch

set_option maxRecDepth 16384

noncomputable section

namespace Cert.KernelIdeal.Fold

open Idealize.ShloMosaic Idealize.ShloMosaic.TcCoe Idealize.SL.Sem
open Cert.KernelIdeal Cert.KernelIdeal.Gen Cert.KernelIdeal.Glue
open Idealize.ShloMosaic.Pipeline (Dat Cfg Window)

variable {F : FTy → Type} [FloatOps F]

variable (m : (ℓ : Loc nD τ sig) → Buf (Elt F) ℓ) (ρ : Dev nD → PrngReg)

/-- No operation of the four host stretches writes the buffer in question: decided operation by operation. -/
macro "untouched" : tactic =>
  `(tactic| exact StableHlo.after_of_forall_not_mem _ _ (List.forall_iff_forall_mem.mp (by
      simp only [hostOps0, hostOps1, hostOps1_1, hostOps2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## At the first region's entry -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by untouched
    _ = m ((c : Thread nD τ).loc main_arg0) := rfl
theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by untouched
    _ = m ((c : Thread nD τ).loc main_arg1) := rfl
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by untouched
    _ = m ((c : Thread nD τ).loc main_arg2) := rfl
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by untouched
    _ = m ((c : Thread nD τ).loc main_arg3) := rfl
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by untouched
    _ = m ((c : Thread nD τ).loc main_arg4) := rfl
theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := by untouched
    _ = m ((c : Thread nD τ).loc main_arg6) := rfl
/-- The edge table's two rows, as the first stretch leaves them. -/
theorem W1_v1 (c : Dev nD) : W1 m ρ c (Proc.devRef .tc main_v1) = sourcesOf (m ((c : Thread nD τ).loc main_arg5)) :=
  Stretch.sources (W0 m ρ c)
theorem W1_v3 (c : Dev nD) : W1 m ρ c (Proc.devRef .tc main_v3) = targetsOf (m ((c : Thread nD τ).loc main_arg5)) :=
  Stretch.targets (W0 m ρ c)

/-! ## At the first region's exit -/

theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_v1 (c : Dev nD) : W2 m ρ c (Proc.devRef .tc main_v1) = sourcesOf (m ((c : Thread nD τ).loc main_arg5)) :=
  (W2_of_ne m ρ c main_v1 (by decide)).trans (W1_v1 m ρ c)
theorem W2_v3 (c : Dev nD) : W2 m ρ c (Proc.devRef .tc main_v3) = targetsOf (m ((c : Thread nD τ).loc main_arg5)) :=
  (W2_of_ne m ρ c main_v3 (by decide)).trans (W1_v3 m ρ c)

/-! ## At the second region's entry -/

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := by untouched
    _ = W2 m ρ c (Proc.devRef .tc main_arg3) := by untouched
    _ = m ((c : Thread nD τ).loc main_arg3) := W2_arg3 m ρ c
theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by untouched
    _ = W2 m ρ c (Proc.devRef .tc main_arg4) := by untouched
    _ = m ((c : Thread nD τ).loc main_arg4) := W2_arg4 m ρ c
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := by untouched
    _ = W2 m ρ c (Proc.devRef .tc main_arg6) := by untouched
    _ = m ((c : Thread nD τ).loc main_arg6) := W2_arg6 m ρ c
theorem W4_v1 (c : Dev nD) : W4 m ρ c (Proc.devRef .tc main_v1) = sourcesOf (m ((c : Thread nD τ).loc main_arg5)) :=
  calc W4 m ρ c (Proc.devRef .tc main_v1)
    _ = W3 m ρ c (Proc.devRef .tc main_v1) := by untouched
    _ = W2 m ρ c (Proc.devRef .tc main_v1) := by untouched
    _ = sourcesOf (m ((c : Thread nD τ).loc main_arg5)) := W2_v1 m ρ c
theorem W4_v3 (c : Dev nD) : W4 m ρ c (Proc.devRef .tc main_v3) = targetsOf (m ((c : Thread nD τ).loc main_arg5)) :=
  calc W4 m ρ c (Proc.devRef .tc main_v3)
    _ = W3 m ρ c (Proc.devRef .tc main_v3) := by untouched
    _ = W2 m ρ c (Proc.devRef .tc main_v3) := by untouched
    _ = targetsOf (m ((c : Thread nD τ).loc main_arg5)) := W2_v3 m ρ c

/-! ## At the second region's exit -/

theorem W5_arg4 (c : Dev nD) : W5 m ρ c (Proc.devRef .tc main_arg4) = m ((c : Thread nD τ).loc main_arg4) :=
  (W5_of_ne m ρ c main_arg4 (by decide)).trans (W4_arg4 m ρ c)
theorem W5_arg6 (c : Dev nD) : W5 m ρ c (Proc.devRef .tc main_arg6) = m ((c : Thread nD τ).loc main_arg6) :=
  (W5_of_ne m ρ c main_arg6 (by decide)).trans (W4_arg6 m ρ c)
theorem W5_v1 (c : Dev nD) : W5 m ρ c (Proc.devRef .tc main_v1) = sourcesOf (m ((c : Thread nD τ).loc main_arg5)) :=
  (W5_of_ne m ρ c main_v1 (by decide)).trans (W4_v1 m ρ c)
theorem W5_v3 (c : Dev nD) : W5 m ρ c (Proc.devRef .tc main_v3) = targetsOf (m ((c : Thread nD τ).loc main_arg5)) :=
  (W5_of_ne m ρ c main_v3 (by decide)).trans (W4_v3 m ρ c)

/-! ## The result -/

/-- The result buffer at the last boundary: the link scores over the three regions' array functions. -/
theorem result
    (prod1 : (⟨S100000x128, .f32⟩ : BufTy).Contents (Elt F) → (⟨S128x128, .f32⟩ : BufTy).Contents (Elt F) → (⟨S100000x128, .f32⟩ : BufTy).Contents (Elt F))
    (prod2 : (⟨S100000x128, .f32⟩ : BufTy).Contents (Elt F) → (⟨S128x64, .f32⟩ : BufTy).Contents (Elt F) → (⟨S100000x64, .f32⟩ : BufTy).Contents (Elt F))
    (dec : (⟨S1048576x64, .f32⟩ : BufTy).Contents (Elt F) → (⟨S1048576x64, .f32⟩ : BufTy).Contents (Elt F) → (⟨S1048576, .f32⟩ : BufTy).Contents (Elt F))
    (h0 : ∀ (V : (c : Dev nD) → (b : Ref sig .tc) → Buf (Elt F) ((c : Thread nD τ).loc b)) (c : Dev nD),
      (dat0 V c).arrAt 2 cfg0.N = prod1 (V c main_arg0) (V c main_arg1))
    (h1 : ∀ (V : (c : Dev nD) → (b : Ref sig .tc) → Buf (Elt F) ((c : Thread nD τ).loc b)) (c : Dev nD),
      (dat1 V c).arrAt 2 cfg1.N = prod2 (V c main_v44) (V c main_arg3))
    (h2 : ∀ (V : (c : Dev nD) → (b : Ref sig .tc) → Buf (Elt F) ((c : Thread nD τ).loc b)) (c : Dev nD),
      (dat2 V c).arrAt 2 cfg2.N = dec (V c main_v93) (V c main_v102))
    (c : Dev nD) :
    W7 m ρ c (Proc.devRef .tc main_v103)
      = scores prod1 prod2 dec
          (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  have e7 : W7 m ρ c (Proc.devRef .tc main_v103) = dec (V6 m ρ c main_v93) (V6 m ρ c main_v102) :=
    (W7_arr m ρ c 2).trans (h2 (V6 m ρ) c)
  have e93 : V6 m ρ c main_v93 = rowsAtFirstEnds (propagate64 (W5 m ρ c (Proc.devRef .tc main_v45)) (W5 m ρ c (Proc.devRef .tc main_arg4))
      (W5 m ρ c (Proc.devRef .tc main_v1)) (W5 m ρ c (Proc.devRef .tc main_v3))) (W5 m ρ c (Proc.devRef .tc main_arg6)) :=
    Stretch.firstEnds (W5 m ρ c)
  have e102 : V6 m ρ c main_v102 = rowsAtSecondEnds (propagate64 (W5 m ρ c (Proc.devRef .tc main_v45)) (W5 m ρ c (Proc.devRef .tc main_arg4))
      (W5 m ρ c (Proc.devRef .tc main_v1)) (W5 m ρ c (Proc.devRef .tc main_v3))) (W5 m ρ c (Proc.devRef .tc main_arg6)) :=
    Stretch.secondEnds (W5 m ρ c)
  have e45 : W5 m ρ c (Proc.devRef .tc main_v45) = prod2 (V4 m ρ c main_v44) (V4 m ρ c main_arg3) :=
    (W5_arr m ρ c 2).trans (h1 (V4 m ρ) c)
  have e44 : V4 m ρ c main_v44 = positivePart (propagate128 (W2 m ρ c (Proc.devRef .tc main_v4)) (W2 m ρ c (Proc.devRef .tc main_arg2))
      (W2 m ρ c (Proc.devRef .tc main_v1)) (W2 m ρ c (Proc.devRef .tc main_v3))) :=
    Stretch.hidden (W2 m ρ c)
  have e43 : V4 m ρ c main_arg3 = m ((c : Thread nD τ).loc main_arg3) := W4_arg3 m ρ c
  have e4 : W2 m ρ c (Proc.devRef .tc main_v4) = prod1 (V1 m ρ c main_arg0) (V1 m ρ c main_arg1) :=
    (W2_arr m ρ c 2).trans (h0 (V1 m ρ) c)
  have e10 : V1 m ρ c main_arg0 = m ((c : Thread nD τ).loc main_arg0) := W1_arg0 m ρ c
  have e11 : V1 m ρ c main_arg1 = m ((c : Thread nD τ).loc main_arg1) := W1_arg1 m ρ c
  rw [e7, e93, e102, e45, e44, e43, e4, e10, e11, W5_arg4, W5_arg6, W5_v1, W5_v3, W2_arg2, W2_v1, W2_v3]
  rfl

end Cert.KernelIdeal.Fold

end
-- ==== Proof.RefValue.lean ====
/-
  The reference program's result, as the shared graph-convolution arithmetic around its own two matrix products
  and its own decoder (the sum over the feature axis of the product of the two fetched row tables).
-/
import proofs.«169004_j79096117723242_1_alg».proof.Proof.Gen.ReferenceIdeal.Run
import proofs.«169004_j79096117723242_1_alg».proof.Proof.Gen.KernelIdeal
import proofs.«169004_j79096117723242_1_alg».proof.Proof.Glue

set_option maxRecDepth 16384

noncomputable section

namespace Cert.ReferenceIdeal.RefValue

open Idealize.ShloMosaic Idealize.ShloMosaic.TcCoe Idealize.SL.Sem

variable {F : FTy → Type} [FloatOps F]

/-- The reference's two matrix products and its decoder. -/
abbrev prod1 : (⟨Cert.ReferenceIdeal.S100000x128, .f32⟩ : BufTy).Contents (Elt F) → (⟨Cert.ReferenceIdeal.S128x128, .f32⟩ : BufTy).Contents (Elt F) → (⟨Cert.ReferenceIdeal.S100000x128, .f32⟩ : BufTy).Contents (Elt F) :=
  fun l r => Host.dotGeneral Cert.ReferenceIdeal.dot_S100000x128_S128x128_S100000x128_1_0_0_1_n_n none l r
abbrev prod2 : (⟨Cert.ReferenceIdeal.S100000x128, .f32⟩ : BufTy).Contents (Elt F) → (⟨Cert.ReferenceIdeal.S128x64, .f32⟩ : BufTy).Contents (Elt F) → (⟨Cert.ReferenceIdeal.S100000x64, .f32⟩ : BufTy).Contents (Elt F) :=
  fun l r => Host.dotGeneral Cert.ReferenceIdeal.dot_S100000x128_S128x64_S100000x64_1_0_0_1_n_n none l r
abbrev dec : (⟨Cert.ReferenceIdeal.S1048576x64, .f32⟩ : BufTy).Contents (Elt F) → (⟨Cert.ReferenceIdeal.S1048576x64, .f32⟩ : BufTy).Contents (Elt F) → (⟨Cert.ReferenceIdeal.S1048576, .f32⟩ : BufTy).Contents (Elt F) :=
  fun a b => Host.reduceAdd (mulf a b) (constant Cert.ReferenceIdeal.S_ .f32 0x00000000#32) Cert.ReferenceIdeal.Gen.reducesTo_S1048576x64_S1048576_d1 Cert.ReferenceIdeal.Gen.h_S_

open Cert.ReferenceIdeal in
set_option maxHeartbeats 8000000 in
/-- The run's composed term is the link scores over the reference's own products and decoder. -/
theorem result_eq (m : (ℓ : Loc nD τ sig) → Buf (Elt F) ℓ) (c : Dev nD) :
    Cert.ReferenceIdeal.Value.res_main_v104 (F := F) m c
      = Cert.KernelIdeal.Glue.scores (F := F) prod1 prod2 dec
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v104
  rfl

end Cert.ReferenceIdeal.RefValue

end
-- ==== Proof.LibIdealAt.lean ====
/-
  Vector operations of a kernel body read at an index, at the extended reals, in the form "if the operands
  read A and B there, the result reads A + B": one lemma per operation, so that the value of a composed
  expression at an index is assembled along the expression's own tree.

  Pointwise operations read the operands at the same index. A matrix product into the zero accumulator reads
  a row of the left operand against a column of the right one. A sum over the middle axis of a rank-3 vector,
  or over the last axis of a rank-2 one, is the finite sum over that coordinate. The layout operations read:
  [a, b, c] viewed as [a·b, c] and back (row p·b + o is node o of graph p), [a] viewed as a column [a, 1], a
  column spread over b columns, [a, c] viewed as [a, 1, c], and that spread over b copies of the middle axis.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.IdealAt

open Idealize.ShloMosaic Idealize.ShloMosaic.ValueIdx

variable {s : Shape} {φ : FTy}

/-! ## Pointwise operations -/

theorem addf_at {a b : FVec Ideal s φ} {i : s.Idx} {A B : EReal} (ha : a i = A) (hb : b i = B) :
    addf a b i = A + B := by subst ha hb; rfl
theorem subf_at {a b : FVec Ideal s φ} {i : s.Idx} {A B : EReal} (ha : a i = A) (hb : b i = B) :
    subf a b i = A - B := by subst ha hb; rfl
theorem mulf_at {a b : FVec Ideal s φ} {i : s.Idx} {A B : EReal} (ha : a i = A) (hb : b i = B) :
    mulf a b i = A * B := by subst ha hb; rfl
theorem divf_at {a b : FVec Ideal s φ} {i : s.Idx} {A B : EReal} (ha : a i = A) (hb : b i = B) :
    divf a b i = Ideal.div A B := by subst ha hb; rfl
theorem maximumf_at {a b : FVec Ideal s φ} {i : s.Idx} {A B : EReal} (ha : a i = A) (hb : b i = B) :
    maximumf a b i = max A B := by subst ha hb; rfl
theorem rsqrt_at {a : FVec Ideal s φ} {i : s.Idx} {A : EReal} (ha : a i = A) :
    rsqrt a i = Ideal.rsqrt A := by subst ha; rfl
/-- A change of float format is the identity on extended reals. -/
theorem truncf_at {ψ : FTy} {a : FVec Ideal s φ} {h : ψ.bits < φ.bits} {i : s.Idx} {A : EReal} (ha : a i = A) :
    (truncf ψ a h : FVec Ideal s ψ) i = A := by subst ha; rfl
/-- A splat of a scalar constant reads the extended real its word denotes. -/
theorem splat_at (b : BitVec 32) (i : s.Idx) :
    broadcast s (Scalar.ofBits (F := Ideal) .f32 b) i = Ideal.ofBits .f32 b := rfl

/-! ## A matrix product into the zero accumulator -/

/-- For dimension numbers that contract the left operand's columns against the right operand's rows (the four
    coordinate facts, which hold of a printed record by computation), the product at (a, c) is the sum over k
    of left (a, k) times right (k, c). -/
theorem matmul_at {m n q : ℕ} {φ₁ φ₂ : FTy} (D : DotDims ⟨2, ![m, n]⟩ ⟨2, ![n, q]⟩ ⟨2, ![m, q]⟩)
    (hr : D.contr.rank = 1) (hs : D.contr.size ⟨0, by omega⟩ = n)
    (hl0 : ∀ i c, (D.lhsIdx i c 0).val = (i 0).val) (hl1 : ∀ i c, (D.lhsIdx i c 1).val = (c ⟨0, by omega⟩).val)
    (hr0 : ∀ i c, (D.rhsIdx i c 0).val = (c ⟨0, by omega⟩).val) (hr1 : ∀ i c, (D.rhsIdx i c 1).val = (i 1).val)
    (prec : Option ContractPrecision) {l : FVec Ideal ⟨2, ![m, n]⟩ φ₁} {r : FVec Ideal ⟨2, ![n, q]⟩ φ₂}
    {a : Fin m} {c : Fin q} {L R : Fin n → EReal}
    (hL : ∀ k, l (ix2 a k) = L k) (hR : ∀ k, r (ix2 k c) = R k) :
    matmul D prec l r (constant ⟨2, ![m, q]⟩ .f32 0x00000000#32) (ix2 a c) = ∑ k : Fin n, L k * R k := by
  refine (Ideal.matmul_constant_zero_apply D prec l r (ix2 a c)).trans ?_
  rw [← Equiv.sum_comp (contrEquiv1 D n hr hs).symm]
  refine Finset.sum_congr rfl fun k _ => ?_
  have hk := contrEquiv1_symm_val D n hr hs k
  have el : D.lhsIdx (ix2 a c) ((contrEquiv1 D n hr hs).symm k) = ix2 a k := funext fun x => Fin.ext (by
    match x with
    | ⟨0, _⟩ => exact hl0 _ _
    | ⟨1, _⟩ => exact (hl1 _ _).trans hk)
  have er : D.rhsIdx (ix2 a c) ((contrEquiv1 D n hr hs).symm k) = ix2 k c := funext fun x => Fin.ext (by
    match x with
    | ⟨0, _⟩ => exact (hr0 _ _).trans hk
    | ⟨1, _⟩ => exact hr1 _ _)
  rw [el, er, hL, hR]

/-! ## Sums along one axis -/

/-- The sum over the middle axis of a rank-3 vector, at (p, k), is the sum over o of the vector at (p, o, k). -/
theorem sum_mid_at {a b c : ℕ} {src : FVec Ideal ⟨3, ![a, b, c]⟩ .f32} {acc : BitVec 32}
    {h : (⟨3, ![a, b, c]⟩ : Shape).Reduces [1] ⟨2, ![a, c]⟩} {hφ : FKind.Formats .f32}
    {hacc : acc = FKind.add.neutral .f32 hφ} {p : Fin a} {k : Fin c} {f : Fin b → EReal}
    (hf : ∀ o, src (ix3 p o k) = f o) :
    multiReduction .add [1] ⟨2, ![a, c]⟩ src acc h hφ hacc (ix2 p k) = ∑ o : Fin b, f o := by
  refine (Ideal.multiReduction_add_single src acc h hφ hacc (ix2 p k)).trans ?_
  refine Finset.sum_congr rfl fun o _ => (congrArg src ?_).trans (hf o)
  funext x
  match x with
  | ⟨0, _⟩ => rfl
  | ⟨1, _⟩ => rfl
  | ⟨2, _⟩ => rfl

/-- The sum over the last axis of a rank-2 vector, at p, is the sum over k of the vector at (p, k). -/
theorem sum_last_at {a c : ℕ} {src : FVec Ideal ⟨2, ![a, c]⟩ .f32} {acc : BitVec 32}
    {h : (⟨2, ![a, c]⟩ : Shape).Reduces [1] ⟨1, ![a]⟩} {hφ : FKind.Formats .f32}
    {hacc : acc = FKind.add.neutral .f32 hφ} {p : Fin a} {f : Fin c → EReal}
    (hf : ∀ k, src (ix2 p k) = f k) :
    multiReduction .add [1] ⟨1, ![a]⟩ src acc h hφ hacc (ix1 p) = ∑ k : Fin c, f k := by
  refine (Ideal.multiReduction_add_single src acc h hφ hacc (ix1 p)).trans ?_
  refine Finset.sum_congr rfl fun k _ => (congrArg src ?_).trans (hf k)
  funext x
  match x with
  | ⟨0, _⟩ => rfl
  | ⟨1, _⟩ => rfl

/-! ## Layout operations -/

variable {α : Type}

/-- Row p·b + o of the [n, c] view (n = a·b) of an [a, b, c] vector is its row (p, o). -/
theorem shapeCast_merge_at {a b c n : ℕ} (v : (⟨3, ![a, b, c]⟩ : Shape).Idx → α)
    (h : (⟨3, ![a, b, c]⟩ : Shape).ShapeCasts ⟨2, ![n, c]⟩) (p : Fin a) (o : Fin b) (d : Fin c) (r : Fin n)
    (hr : r.val = p.val * b + o.val) : shapeCast ⟨2, ![n, c]⟩ v h (ix2 r d) = v (ix3 p o d) := by
  refine shapeCast_apply v h (ix2 r d) (ix3 p o d) ?_
  rw [Shape.rowMajor_val_two, Shape.rowMajor_val_three]
  show (p.val * b + o.val) * c + d.val = r.val * c + d.val
  rw [hr]

/-- Row (p, o) of the [a, b, c] view of an [n, c] vector (n = a·b) is its row p·b + o. -/
theorem shapeCast_split_at {a b c n : ℕ} (v : (⟨2, ![n, c]⟩ : Shape).Idx → α)
    (h : (⟨2, ![n, c]⟩ : Shape).ShapeCasts ⟨3, ![a, b, c]⟩) (p : Fin a) (o : Fin b) (d : Fin c) (r : Fin n)
    (hr : r.val = p.val * b + o.val) : shapeCast ⟨3, ![a, b, c]⟩ v h (ix3 p o d) = v (ix2 r d) := by
  refine shapeCast_apply v h (ix3 p o d) (ix2 r d) ?_
  rw [Shape.rowMajor_val_two, Shape.rowMajor_val_three]
  show r.val * c + d.val = (p.val * b + o.val) * c + d.val
  rw [hr]

/-- An [a] vector viewed as a column [a, 1] reads its entry p at (p, 0). -/
theorem shapeCast_col_at {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_two, Shape.rowMajor_val_one]
  show p.val = p.val * 1 + z.val
  have := z.isLt; omega

/-- An [a, c] vector viewed as [a, 1, c] reads (p, j) at (p, 0, j). -/
theorem shapeCast_mid_at {a c : ℕ} (v : (⟨2, ![a, c]⟩ : Shape).Idx → α)
    (h : (⟨2, ![a, c]⟩ : Shape).ShapeCasts ⟨3, ![a, 1, c]⟩) (p : Fin a) (z : Fin 1) (j : Fin c) :
    shapeCast ⟨3, ![a, 1, c]⟩ v h (ix3 p z j) = v (ix2 p j) := by
  refine shapeCast_apply v h (ix3 p z j) (ix2 p j) ?_
  rw [Shape.rowMajor_val_two, Shape.rowMajor_val_three]
  show p.val * c + j.val = (p.val * 1 + z.val) * c + j.val
  have := z.isLt
  have hz : z.val = 0 := by omega
  rw [hz, Nat.mul_one, Nat.add_zero]

/-- A column [a, 1] spread over b columns reads, at (p, k), the column's entry p. -/
theorem broadcastTo_col_at {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- An [a, 1, c] vector spread over b copies of its middle axis reads, at (p, o, j), its entry (p, 0, j). -/
theorem broadcastTo_mid_at {a b c : ℕ} (v : (⟨3, ![a, 1, c]⟩ : Shape).Idx → α)
    (h : (⟨3, ![a, 1, c]⟩ : Shape).Broadcasts ⟨3, ![a, b, c]⟩) (p : Fin a) (o : Fin b) (j : Fin c) :
    broadcastTo ⟨3, ![a, b, c]⟩ v h (ix3 p o j) = v (ix3 p (0 : Fin 1) j) := by
  refine broadcastTo_apply v h (ix3 p o j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

end Cert.IdealAt

end
-- ==== Proof.MatOne.lean ====
/-
  The output array of a blocked matrix product, as one function of its two input arrays, over the extended reals.

  The left array [100000, 128] is cut into 20 row blocks of 5000 rows; grid point t multiplies block t by the whole right
  array [128, 128] and writes the result as row block t of the output [100000, 128]. Entry (p, q) of a block product
  is the sum over k of left (p, k) · right (k, q); row p of block t is row t·5000 + p of the array; the 20 blocks tile the
  output exactly (row r lies in block r / 5000). So the output array is the row-by-column sums of the whole arrays,
  which is also what the host's product of the whole arrays reads at every entry.
-/
import proofs.«169004_j79096117723242_1_alg».proof.Proof.Gen.KernelIdeal.Frame
import proofs.«169004_j79096117723242_1_alg».proof.Proof.Gen.ReferenceIdeal
import proofs.«169004_j79096117723242_1_alg».proof.Proof.LibIdealAt
import proofs.«169004_j79096117723242_1_alg».proof.Proof.RefValue
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatOne

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The matrix product of a [100000, 128] array and a [128, 128] array: entry (r, q) is the sum over k of X (r, k) · W (k, q). -/
def G (X : (⟨2, ![100000, 128]⟩ : Shape).Idx → EReal) (W : (⟨2, ![128, 128]⟩ : Shape).Idx → EReal) :
    (⟨2, ![100000, 128]⟩ : Shape).Idx → EReal :=
  fun i => ∑ k : Fin 128, X (ix2 (i 0) k) * W (ix2 k (i 1))

/-- The index maps, decided over the grid: at point t the left operand's block and the output's block are block row t,
    and the right operand's block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The dimension numbers of the block product, coordinate by coordinate -/

theorem lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The blocks at a grid point -/

/-- Entry (p, k) of the left operand's block at point t is entry (t·5000 + p, k) of its array. -/
theorem xblk_apply (c : Dev nD) (t : Fin cfg0.N) (p : Fin 5000) (k : Fin 128) (r : Fin 100000)
    (hr : r.val = t.val * 5000 + p.val) :
    (iblk0 V c 0 t : Vec Ideal S5000x128 .f32) (ix2 p k) = V c main_arg0 (ix2 r k) := by
  obtain ⟨e0, e1, e2, e3, e4, e5⟩ := idx_facts t
  show V c main_arg0 (((cfg0.win 0).blk t).view.emb (ix2 p k)) = V c main_arg0 (ix2 r k)
  refine congrArg (V c main_arg0 : (⟨2, ![100000, 128]⟩ : Shape).Idx → EReal) ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The right operand's block at every point is its whole array. -/
theorem wblk_apply (c : Dev nD) (t : Fin cfg0.N) (k : Fin 128) (q : Fin 128) :
    (iblk0 V c 1 t : Vec Ideal S128x128 .f32) (ix2 k q) = V c main_arg1 (ix2 k q) := by
  obtain ⟨e0, e1, e2, e3, e4, e5⟩ := idx_facts t
  show V c main_arg1 (((cfg0.win 1).blk t).view.emb (ix2 k q)) = V c main_arg1 (ix2 k q)
  refine congrArg (V c main_arg1 : (⟨2, ![128, 128]⟩ : Shape).Idx → EReal) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Entry (p, q) of the output's block at point t sits at (t·5000 + p, q) of the output array. -/
theorem oblk_emb (t : Fin cfg0.N) (p : Fin 5000) (q : Fin 128) (r : Fin 100000)
    (hr : r.val = t.val * 5000 + p.val) :
    ((cfg0.win 2).blk t).view.emb (ix2 p q) = (ix2 r q : (⟨2, ![100000, 128]⟩ : Shape).Idx) := by
  obtain ⟨e0, e1, e2, e3, e4, e5⟩ := idx_facts t
  funext a; apply Fin.ext
  match a with
  | ⟨0, _⟩ => show win0_2.index t (0 : Fin 2) * 5000 + 1 * p.val = r.val; omega
  | ⟨1, _⟩ => show win0_2.index t (1 : Fin 2) * 128 + 1 * q.val = q.val; omega

/-! ## What a point writes back -/

/-- The payload at (p, q), for operand blocks that read L along row p and R along column q, is the sum of products. -/
theorem pay_at (x0 : Vec Ideal S5000x128 .f32) (x1 : Vec Ideal S128x128 .f32) (p : Fin 5000) (q : Fin 128)
    (L R : Fin 128 → EReal) (hL : ∀ k, x0 (ix2 p k) = L k) (hR : ∀ k, x1 (ix2 k q) = R k) :
    k0_pay1 x0 x1 (ix2 p q) = ∑ k : Fin 128, L k * R k := by
  unfold k0_pay1
  exact Cert.IdealAt.matmul_at dot_S5000x128_S128x128_S5000x128_1_0_0_1_n_n rfl rfl lhs0 lhs1 rhs0 rhs1 none
    (fun k => Cert.IdealAt.truncf_at (hL k)) (fun k => Cert.IdealAt.truncf_at (hR k))

/-- What point t writes back is block t of the matrix product of the two input arrays. -/
theorem flushed_eq (c : Dev nD) (t : Fin cfg0.N) :
    (dat0 (F := Ideal) V c).flushed 2 t
      = ((cfg0.win 2).blk t).view.read (Elt Ideal) (G (V c main_arg0) (V c main_arg1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  have hN : grid0.N = 20 := N_0
  have ht : t.val < 20 := hN ▸ t.isLt
  have hp : p.val < 5000 := p.isLt
  obtain ⟨r, hr⟩ : ∃ r : Fin 100000, r.val = t.val * 5000 + p.val := ⟨⟨t.val * 5000 + p.val, by omega⟩, rfl⟩
  show k0_pay1 (iblk0 V c 0 t) (iblk0 V c 1 t) (ix2 p q)
    = G (V c main_arg0) (V c main_arg1) (((cfg0.win 2).blk t).view.emb (ix2 p q))
  rw [oblk_emb t p q r hr]
  exact pay_at _ _ p q (fun k => V c main_arg0 (ix2 r k)) (fun k => V c main_arg1 (ix2 k q))
    (fun k => xblk_apply V c t p k r hr) (fun k => wblk_apply V c t k q)

/-! ## The blocks tile the output array -/

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every index of the output array is in some point's block: row r is in block r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show (i 0).val / 5000 < grid0.N; rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after all grid points is the matrix product of the two input arrays. -/
theorem arr_eq_G (c : Dev nD) :
    (dat0 (F := Ideal) V c).arrAt 2 cfg0.N = G (V c main_arg0) (V c main_arg1) :=
  (dat0 V c).arrAt_eq_of_cover 2 (G (V c main_arg0) (V c main_arg1)) (fun t _ => flushed_eq V c t) cover

/-! ## The host's product of the whole arrays is the same sums -/

theorem rlhs0 (i : S100000x128.Idx) (q : Cert.ReferenceIdeal.dot_S100000x128_S128x128_S100000x128_1_0_0_1_n_n.contr.Idx) : (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem rlhs1 (i : S100000x128.Idx) (q : Cert.ReferenceIdeal.dot_S100000x128_S128x128_S100000x128_1_0_0_1_n_n.contr.Idx) : (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rrhs0 (i : S100000x128.Idx) (q : Cert.ReferenceIdeal.dot_S100000x128_S128x128_S100000x128_1_0_0_1_n_n.contr.Idx) : (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rrhs1 (i : S100000x128.Idx) (q : Cert.ReferenceIdeal.dot_S100000x128_S128x128_S100000x128_1_0_0_1_n_n.contr.Idx) : (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The host's product of a [100000, 128] array and a [128, 128] array, entry by entry, is the row-by-column sum. -/
theorem G_eq_host (X : (⟨2, ![100000, 128]⟩ : Shape).Idx → EReal) (W : (⟨2, ![128, 128]⟩ : Shape).Idx → EReal) :
    G X W = Host.dotGeneral (F := Ideal) (φ₁ := .f32) (φ₂ := .f32) Cert.ReferenceIdeal.dot_S100000x128_S128x128_S100000x128_1_0_0_1_n_n none X W := by
  funext i
  obtain ⟨p, q, rfl⟩ : ∃ (p : Fin 100000) (q : Fin 128), i = ix2 p q := ⟨i 0, i 1, eq_ix2 i⟩
  symm
  simp only [Host.dotGeneral]
  refine (Ideal.dotGeneral_apply Cert.ReferenceIdeal.dot_S100000x128_S128x128_S100000x128_1_0_0_1_n_n none _ X W (ix2 p q)).trans ?_
  rw [← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) = ix2 p k := funext fun x => Fin.ext (by
    match x with
    | ⟨0, _⟩ => exact rlhs0 _ _
    | ⟨1, _⟩ => exact (rlhs1 _ _).trans hk)
  have er : Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) = ix2 k q := funext fun x => Fin.ext (by
    match x with
    | ⟨0, _⟩ => exact (rrhs0 _ _).trans hk
    | ⟨1, _⟩ => exact rrhs1 _ _)
  rw [el, er]

/-- The output array after all grid points is the host's product of the two input arrays as the region finds them. -/
theorem arr_host (c : Dev nD) :
    (dat0 (F := Ideal) V c).arrAt 2 cfg0.N
      = Host.dotGeneral (F := Ideal) (φ₁ := .f32) (φ₂ := .f32) Cert.ReferenceIdeal.dot_S100000x128_S128x128_S100000x128_1_0_0_1_n_n none (V c main_arg0) (V c main_arg1) :=
  (arr_eq_G V c).trans (G_eq_host (V c main_arg0) (V c main_arg1))

/-- THE OUTPUT ARRAY after all grid points is the reference's product of the two input arrays as the region finds them. -/
theorem arr (c : Dev nD) :
    (dat0 (F := Ideal) V c).arrAt 2 cfg0.N
      = Cert.ReferenceIdeal.RefValue.prod1 (F := Ideal) (V c main_arg0) (V c main_arg1) :=
  arr_host V c

end Cert.KernelIdeal.MatOne

end
-- ==== Proof.MatTwo.lean ====
/-
  The output array of a blocked matrix product, as one function of its two input arrays, over the extended reals.

  The left array [100000, 128] is cut into 20 row blocks of 5000 rows; grid point t multiplies block t by the whole right
  array [128, 64] and writes the result as row block t of the output [100000, 64]. Entry (p, q) of a block product
  is the sum over k of left (p, k) · right (k, q); row p of block t is row t·5000 + p of the array; the 20 blocks tile the
  output exactly (row r lies in block r / 5000). So the output array is the row-by-column sums of the whole arrays,
  which is also what the host's product of the whole arrays reads at every entry.
-/
import proofs.«169004_j79096117723242_1_alg».proof.Proof.Gen.KernelIdeal.Frame
import proofs.«169004_j79096117723242_1_alg».proof.Proof.Gen.ReferenceIdeal
import proofs.«169004_j79096117723242_1_alg».proof.Proof.LibIdealAt
import proofs.«169004_j79096117723242_1_alg».proof.Proof.RefValue
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatTwo

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The matrix product of a [100000, 128] array and a [128, 64] array: entry (r, q) is the sum over k of X (r, k) · W (k, q). -/
def G (X : (⟨2, ![100000, 128]⟩ : Shape).Idx → EReal) (W : (⟨2, ![128, 64]⟩ : Shape).Idx → EReal) :
    (⟨2, ![100000, 64]⟩ : Shape).Idx → EReal :=
  fun i => ∑ k : Fin 128, X (ix2 (i 0) k) * W (ix2 k (i 1))

/-- The index maps, decided over the grid: at point t the left operand's block and the output's block are block row t,
    and the right operand's block is the whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-! ## The dimension numbers of the block product, coordinate by coordinate -/

theorem lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The blocks at a grid point -/

/-- Entry (p, k) of the left operand's block at point t is entry (t·5000 + p, k) of its array. -/
theorem xblk_apply (c : Dev nD) (t : Fin cfg1.N) (p : Fin 5000) (k : Fin 128) (r : Fin 100000)
    (hr : r.val = t.val * 5000 + p.val) :
    (iblk1 V c 0 t : Vec Ideal S5000x128 .f32) (ix2 p k) = V c main_v44 (ix2 r k) := by
  obtain ⟨e0, e1, e2, e3, e4, e5⟩ := idx_facts t
  show V c main_v44 (((cfg1.win 0).blk t).view.emb (ix2 p k)) = V c main_v44 (ix2 r k)
  refine congrArg (V c main_v44 : (⟨2, ![100000, 128]⟩ : Shape).Idx → EReal) ?_
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- The right operand's block at every point is its whole array. -/
theorem wblk_apply (c : Dev nD) (t : Fin cfg1.N) (k : Fin 128) (q : Fin 64) :
    (iblk1 V c 1 t : Vec Ideal S128x64 .f32) (ix2 k q) = V c main_arg3 (ix2 k q) := by
  obtain ⟨e0, e1, e2, e3, e4, e5⟩ := idx_facts t
  show V c main_arg3 (((cfg1.win 1).blk t).view.emb (ix2 k q)) = V c main_arg3 (ix2 k q)
  refine congrArg (V c main_arg3 : (⟨2, ![128, 64]⟩ : Shape).Idx → EReal) ?_
  funext a; apply Fin.ext
  match a with
  | ⟨0, _⟩ => show win1_1.index t (0 : Fin 2) * 128 + 1 * k.val = k.val; omega
  | ⟨1, _⟩ => show win1_1.index t (1 : Fin 2) * 64 + 1 * q.val = q.val; omega

/-- Entry (p, q) of the output's block at point t sits at (t·5000 + p, q) of the output array. -/
theorem oblk_emb (t : Fin cfg1.N) (p : Fin 5000) (q : Fin 64) (r : Fin 100000)
    (hr : r.val = t.val * 5000 + p.val) :
    ((cfg1.win 2).blk t).view.emb (ix2 p q) = (ix2 r q : (⟨2, ![100000, 64]⟩ : Shape).Idx) := by
  obtain ⟨e0, e1, e2, e3, e4, e5⟩ := idx_facts t
  funext a; apply Fin.ext
  match a with
  | ⟨0, _⟩ => show win1_2.index t (0 : Fin 2) * 5000 + 1 * p.val = r.val; omega
  | ⟨1, _⟩ => show win1_2.index t (1 : Fin 2) * 64 + 1 * q.val = q.val; omega

/-! ## What a point writes back -/

/-- The payload at (p, q), for operand blocks that read L along row p and R along column q, is the sum of products. -/
theorem pay_at (x0 : Vec Ideal S5000x128 .f32) (x1 : Vec Ideal S128x64 .f32) (p : Fin 5000) (q : Fin 64)
    (L R : Fin 128 → EReal) (hL : ∀ k, x0 (ix2 p k) = L k) (hR : ∀ k, x1 (ix2 k q) = R k) :
    k1_pay1 x0 x1 (ix2 p q) = ∑ k : Fin 128, L k * R k := by
  unfold k1_pay1
  exact Cert.IdealAt.matmul_at dot_S5000x128_S128x64_S5000x64_1_0_0_1_n_n rfl rfl lhs0 lhs1 rhs0 rhs1 none
    (fun k => Cert.IdealAt.truncf_at ((congrFun (shapeCast_self x0 shapeCasts_S5000x128_S5000x128) (ix2 p k)).trans (hL k))) (fun k => Cert.IdealAt.truncf_at (hR k))

/-- What point t writes back is block t of the matrix product of the two input arrays. -/
theorem flushed_eq (c : Dev nD) (t : Fin cfg1.N) :
    (dat1 (F := Ideal) V c).flushed 2 t
      = ((cfg1.win 2).blk t).view.read (Elt Ideal) (G (V c main_v44) (V c main_arg3)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  funext j
  obtain ⟨p, q, rfl⟩ : ∃ (p : Fin 5000) (q : Fin 64), j = ix2 p q := ⟨j 0, j 1, eq_ix2 j⟩
  have hN : grid1.N = 20 := N_1
  have ht : t.val < 20 := hN ▸ t.isLt
  have hp : p.val < 5000 := p.isLt
  obtain ⟨r, hr⟩ : ∃ r : Fin 100000, r.val = t.val * 5000 + p.val := ⟨⟨t.val * 5000 + p.val, by omega⟩, rfl⟩
  show k1_pay1 (iblk1 V c 0 t) (iblk1 V c 1 t) (ix2 p q)
    = G (V c main_v44) (V c main_arg3) (((cfg1.win 2).blk t).view.emb (ix2 p q))
  rw [oblk_emb t p q r hr]
  exact pay_at _ _ p q (fun k => V c main_v44 (ix2 r k)) (fun k => V c main_arg3 (ix2 k q))
    (fun k => xblk_apply V c t p k r hr) (fun k => wblk_apply V c t k q)

/-! ## The blocks tile the output array -/

/-- An index of the output array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Every index of the output array is in some point's block: row r is in block r / 5000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 20 := N_1
  obtain ⟨t, ht⟩ : ∃ t : Fin cfg1.N, t.val = (i 0).val / 5000 :=
    ⟨⟨(i 0).val / 5000, by show (i 0).val / 5000 < grid1.N; rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after all grid points is the matrix product of the two input arrays. -/
theorem arr_eq_G (c : Dev nD) :
    (dat1 (F := Ideal) V c).arrAt 2 cfg1.N = G (V c main_v44) (V c main_arg3) :=
  (dat1 V c).arrAt_eq_of_cover 2 (G (V c main_v44) (V c main_arg3)) (fun t _ => flushed_eq V c t) cover

/-! ## The host's product of the whole arrays is the same sums -/

theorem rlhs0 (i : S100000x64.Idx) (q : Cert.ReferenceIdeal.dot_S100000x128_S128x64_S100000x64_1_0_0_1_n_n.contr.Idx) : (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem rlhs1 (i : S100000x64.Idx) (q : Cert.ReferenceIdeal.dot_S100000x128_S128x64_S100000x64_1_0_0_1_n_n.contr.Idx) : (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rrhs0 (i : S100000x64.Idx) (q : Cert.ReferenceIdeal.dot_S100000x128_S128x64_S100000x64_1_0_0_1_n_n.contr.Idx) : (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rrhs1 (i : S100000x64.Idx) (q : Cert.ReferenceIdeal.dot_S100000x128_S128x64_S100000x64_1_0_0_1_n_n.contr.Idx) : (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-- The host's product of a [100000, 128] array and a [128, 64] array, entry by entry, is the row-by-column sum. -/
theorem G_eq_host (X : (⟨2, ![100000, 128]⟩ : Shape).Idx → EReal) (W : (⟨2, ![128, 64]⟩ : Shape).Idx → EReal) :
    G X W = Host.dotGeneral (F := Ideal) (φ₁ := .f32) (φ₂ := .f32) Cert.ReferenceIdeal.dot_S100000x128_S128x64_S100000x64_1_0_0_1_n_n none X W := by
  funext i
  obtain ⟨p, q, rfl⟩ : ∃ (p : Fin 100000) (q : Fin 64), i = ix2 p q := ⟨i 0, i 1, eq_ix2 i⟩
  symm
  simp only [Host.dotGeneral]
  refine (Ideal.dotGeneral_apply Cert.ReferenceIdeal.dot_S100000x128_S128x64_S100000x64_1_0_0_1_n_n none _ X W (ix2 p q)).trans ?_
  rw [← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 p q) ((contrEquiv1 Cert.ReferenceIdeal.dot_S100000x128_S128x64_S100000x64_1_0_0_1_n_n 128 rfl rfl).symm k) = ix2 p k := funext fun x => Fin.ext (by
    match x with
    | ⟨0, _⟩ => exact rlhs0 _ _
    | ⟨1, _⟩ => exact (rlhs1 _ _).trans hk)
  have er : Cert.ReferenceIdeal.dot_S100000x128_S128x64_S100000x64_1_0_0_1_n_n.rhsIdx (ix2 p q) ((contrEquiv1 Cert.ReferenceIdeal.dot_S100000x128_S128x64_S100000x64_1_0_0_1_n_n 128 rfl rfl).symm k) = ix2 k q := funext fun x => Fin.ext (by
    match x with
    | ⟨0, _⟩ => exact (rrhs0 _ _).trans hk
    | ⟨1, _⟩ => exact rrhs1 _ _)
  rw [el, er]

/-- The output array after all grid points is the host's product of the two input arrays as the region finds them. -/
theorem arr_host (c : Dev nD) :
    (dat1 (F := Ideal) V c).arrAt 2 cfg1.N
      = Host.dotGeneral (F := Ideal) (φ₁ := .f32) (φ₂ := .f32) Cert.ReferenceIdeal.dot_S100000x128_S128x64_S100000x64_1_0_0_1_n_n none (V c main_v44) (V c main_arg3) :=
  (arr_eq_G V c).trans (G_eq_host (V c main_v44) (V c main_arg3))

/-- THE OUTPUT ARRAY after all grid points is the reference's product of the two input arrays as the region finds them. -/
theorem arr (c : Dev nD) :
    (dat1 (F := Ideal) V c).arrAt 2 cfg1.N
      = Cert.ReferenceIdeal.RefValue.prod2 (F := Ideal) (V c main_v44) (V c main_arg3) :=
  arr_host V c

end Cert.KernelIdeal.MatTwo

end
-- ==== Proof.Decode.lean ====
/-
  The decode region's output array as one whole-array function of its two input arrays, at the extended reals.

  The region runs 128 grid points. Point t reads rows t·8192 … t·8192 + 8191 of each of the two [1048576, 64]
  input arrays and writes rows t·8192 … t·8192 + 8191 of the [1048576] output array: row p of its block gets the
  sum over the 64 columns k of the product of the two input blocks at (p, k). The 128 output blocks tile the
  output array exactly, so after all points entry r of the output is the sum over k of A (r, k) · B (r, k),
  which is the host's sum over the last axis, from the zero word, of the pointwise product A · B.
-/
import proofs.«169004_j79096117723242_1_alg».proof.Proof.Gen.KernelIdeal.Frame
import proofs.«169004_j79096117723242_1_alg».proof.Proof.Gen.ReferenceIdeal
import proofs.«169004_j79096117723242_1_alg».proof.Proof.LibIdealAt
import proofs.«169004_j79096117723242_1_alg».proof.Proof.RefValue
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Decode

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-! ## The whole-array function -/

/-- Row sums of the pointwise product of two [1048576, 64] arrays: entry r is the sum over the 64 columns k of
    A (r, k) · B (r, k). -/
def G (A B : (⟨2, ![1048576, 64]⟩ : Shape).Idx → EReal) : (⟨1, ![1048576]⟩ : Shape).Idx → EReal :=
  fun i => ∑ k : Fin 64, A (ix2 (n0 := 1048576) (i 0) k) * B (ix2 (n0 := 1048576) (i 0) k)

theorem G_apply (A B : (⟨2, ![1048576, 64]⟩ : Shape).Idx → EReal) (r : Fin 1048576) :
    G A B (ix1 r) = ∑ k : Fin 64, A (ix2 r k) * B (ix2 r k) := rfl

theorem hz1 : (![0] : Fin 1 → Nat) = fun _ => 0 := funext fun a => by fin_cases a; rfl
theorem hz2 : (![0, 0] : Fin 2 → Nat) = fun _ => 0 := funext fun a => by fin_cases a <;> rfl

/-! ## The body's payload at a row -/

/-- The payload at row p of the block: the two shape casts are identities, the product is pointwise, and the
    reduction over the last axis from the zero word is the finite sum over the 64 columns. -/
theorem pay_at (x0 x1 : Vec Ideal S8192x64 .f32) (p : Fin 8192) :
    k2_pay1 (F := Ideal) x0 x1 (ix1 p) = ∑ k : Fin 64, x0 (ix2 p k) * x1 (ix2 p k) := by
  unfold k2_pay1
  exact Cert.IdealAt.sum_last_at (f := fun k => x0 (ix2 p k) * x1 (ix2 p k)) fun k =>
    Cert.IdealAt.mulf_at (congrFun (shapeCast_self x0 _) _) (congrFun (shapeCast_self x1 _) _)

/-! ## The index maps, decided once over the 128 grid points -/

/-- At point t every window's block index on the row axis is t, and the inputs' on the column axis is 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = t.val :=
  (by decide +kernel : ∀ t : Fin grid2.N, _)

/-! ## Each block read where its rectangle says -/

/-- Entry (p, k) of the first input's block at point t is entry (t · 8192 + p, k) of its array. -/
theorem iblk_0_at (c : Dev nD) (t : Fin cfg2.N) (p : Fin 8192) (k : Fin 64) (r : Fin 1048576)
    (hr : r.val = t.val * 8192 + p.val) :
    iblk2 V c 0 t (ix2 p k) = V c main_v93 (ix2 r k) := by
  obtain ⟨e0, e1, -, -, -⟩ := idx_facts t
  show V c main_v93 (((cfg2.win 0).blk t).view.emb (ix2 p k)) = V c main_v93 (ix2 r k)
  refine congrArg (V c main_v93) (funext fun a => Fin.ext ?_)
  match a with
  | ⟨0, _⟩ => show win2_0.index t (0 : Fin 2) * 8192 + 1 * p.val = r.val; omega
  | ⟨1, _⟩ => show win2_0.index t (1 : Fin 2) * 64 + 1 * k.val = k.val; omega

/-- Entry (p, k) of the second input's block at point t is entry (t · 8192 + p, k) of its array. -/
theorem iblk_1_at (c : Dev nD) (t : Fin cfg2.N) (p : Fin 8192) (k : Fin 64) (r : Fin 1048576)
    (hr : r.val = t.val * 8192 + p.val) :
    iblk2 V c 1 t (ix2 p k) = V c main_v102 (ix2 r k) := by
  obtain ⟨-, -, e2, e3, -⟩ := idx_facts t
  show V c main_v102 (((cfg2.win 1).blk t).view.emb (ix2 p k)) = V c main_v102 (ix2 r k)
  refine congrArg (V c main_v102) (funext fun a => Fin.ext ?_)
  match a with
  | ⟨0, _⟩ => show win2_1.index t (0 : Fin 2) * 8192 + 1 * p.val = r.val; omega
  | ⟨1, _⟩ => show win2_1.index t (1 : Fin 2) * 64 + 1 * k.val = k.val; omega

/-- Entry p of the output's block at point t sits at entry t · 8192 + p of its array. -/
theorem oblk_emb (t : Fin cfg2.N) (p : Fin 8192) (r : Fin 1048576) (hr : r.val = t.val * 8192 + p.val) :
    ((cfg2.win 2).blk t).view.emb (ix1 p) = ix1 r := by
  obtain ⟨-, -, -, -, e4⟩ := idx_facts t
  refine funext fun a => Fin.ext ?_
  match a with
  | ⟨0, _⟩ => show win2_2.index t (0 : Fin 1) * 8192 + 1 * p.val = r.val; omega

/-! ## What a point writes back -/

/-- Point t writes back block t of G of the two input arrays as the region finds them. -/
theorem flushed_eq (c : Dev nD) (t : Fin cfg2.N) :
    (dat2 V c).flushed 2 t
      = ((cfg2.win 2).blk t).view.read (Elt Ideal) (G (V c main_v93) (V c main_v102)) := by
  show (cfg2.win 2).cut (grid2.coords t) ((dat2 V c).after 2 t) = _
  rw [after2_2]
  unfold out2_2
  rw [View.canon_unit_zero hz1]
  simp only [View.ld_unit_zero (S := S8192x64) hz2]
  funext j
  obtain ⟨p, rfl⟩ : ∃ p : Fin 8192, j = ix1 p := ⟨j 0, eq_ix1 j⟩
  have hr : t.val * 8192 + p.val < 1048576 := by
    have h1 : t.val < 128 := lt_of_lt_of_eq t.isLt N_2
    have h2 : p.val < 8192 := p.isLt
    omega
  show k2_pay1 (F := Ideal) (iblk2 V c 0 t) (iblk2 V c 1 t) (ix1 p)
    = G (V c main_v93) (V c main_v102) (((cfg2.win 2).blk t).view.emb (ix1 p))
  rw [oblk_emb t p ⟨t.val * 8192 + p.val, hr⟩ rfl, G_apply]
  refine (pay_at _ _ p).trans (Finset.sum_congr rfl fun k _ => ?_)
  rw [iblk_0_at V c t p k ⟨t.val * 8192 + p.val, hr⟩ rfl, iblk_1_at V c t p k ⟨t.val * 8192 + p.val, hr⟩ rfl]

/-! ## The blocks tile the array -/

/-- An index of the array is in point t's block iff its coordinate is in the block's range. -/
theorem mem_blk (t : Fin cfg2.N) (i : S1048576.Idx) :
    i ∈ ((cfg2.win 2).blk t).view.set
      ↔ ∀ a : Fin 1, win2_2.index t a * S8192.size a ≤ (i a).val
          ∧ (i a).val < win2_2.index t a * S8192.size a + S8192.size a := by
  show i ∈ ((View.whole main_v103).slice (win2_2.rect t)).set ↔ _
  rw [View.set_slice_whole, Rect.mem_set_unit]
  exact Iff.rfl

/-- Every index r of the array is covered: by the block of point r / 8192 (128 blocks of 8192 rows tile the
    1048576 rows exactly). -/
theorem cover (i : S1048576.Idx) :
    ∃ t : Fin cfg2.N, (cfg2.win 2).flush t = true ∧ i ∈ ((cfg2.win 2).blk t).view.set := by
  have hi : (i 0).val < 1048576 := (i 0).isLt
  have hq : (i 0).val / 8192 < cfg2.N := by
    rw [show cfg2.N = 128 from N_2]; omega
  refine ⟨⟨(i 0).val / 8192, hq⟩, flush2_2 _, ?_⟩
  rw [mem_blk]
  intro a
  obtain ⟨-, -, -, -, e4⟩ := idx_facts ⟨(i 0).val / 8192, hq⟩
  match a with
  | ⟨0, _⟩ =>
    show win2_2.index ⟨(i 0).val / 8192, hq⟩ (0 : Fin 1) * 8192 ≤ (i 0).val
      ∧ (i 0).val < win2_2.index ⟨(i 0).val / 8192, hq⟩ (0 : Fin 1) * 8192 + 8192
    rw [e4]
    show (i 0).val / 8192 * 8192 ≤ (i 0).val ∧ (i 0).val < (i 0).val / 8192 * 8192 + 8192
    omega

/-! ## The array after all grid points -/

/-- The output array after the region is G of the two input arrays as the region finds them. -/
theorem arrG (c : Dev nD) :
    (dat2 V c).arrAt 2 cfg2.N = G (V c main_v93) (V c main_v102) :=
  (dat2 V c).arrAt_eq_of_cover 2 (G (V c main_v93) (V c main_v102)) (fun t _ => flushed_eq V c t) cover

/-! ## The same function, as the host's sum -/

/-- The host's sum over the last axis, from the zero word, of the pointwise product is G: the zero word reads 0 and
    the sum over the reduced axis at row r runs over the entries (r, k). -/
theorem host_eq (A B : FVec Ideal Cert.ReferenceIdeal.S1048576x64 .f32) :
    Host.reduceAdd (F := Ideal) (mulf A B) (constant (F := Ideal) Cert.ReferenceIdeal.S_ .f32 0x00000000#32)
        Cert.ReferenceIdeal.Gen.reducesTo_S1048576x64_S1048576_d1 Cert.ReferenceIdeal.Gen.h_S_
      = G A B := by
  funext i
  generalize hy : mulf A B = y0
  simp only [Host.reduceAdd, Ideal.hostReduceAdd_def]
  rw [Ideal.hostReduceAdd_single Cert.ReferenceIdeal.Gen.reducesTo_S1048576x64_S1048576_d1 (by decide)]
  subst hy
  show Ideal.ofBits .f32 0x00000000#32 + _ = _
  rw [Ideal.ofBits_zero_f32, zero_add]
  refine Finset.sum_congr rfl fun k _ => ?_
  refine Cert.IdealAt.mulf_at (congrArg A ?_) (congrArg B ?_) <;>
    exact funext fun a => Fin.ext (by match a with | ⟨0, _⟩ => rfl | ⟨1, _⟩ => rfl)

/-! ## The region's output array -/

/-- The output array after all 128 grid points is the host's sum over the last axis, from the zero word, of the
    pointwise product of the two input arrays as the region finds them. -/
theorem arr_host (c : Dev nD) :
    (Gen.dat2 (F := Ideal) V c).arrAt 2 cfg2.N
      = Host.reduceAdd (F := Ideal) (mulf (V c main_v93) (V c main_v102))
          (constant (F := Ideal) Cert.ReferenceIdeal.S_ .f32 0x00000000#32)
          Cert.ReferenceIdeal.Gen.reducesTo_S1048576x64_S1048576_d1 Cert.ReferenceIdeal.Gen.h_S_ :=
  (arrG V c).trans (host_eq (V c main_v93) (V c main_v102)).symm

/-- The same, with the host's sum of the product named as the reference's decoder. -/
theorem arr (c : Dev nD) :
    (Gen.dat2 (F := Ideal) V c).arrAt 2 cfg2.N
      = Cert.ReferenceIdeal.RefValue.dec (F := Ideal) (V c main_v93) (V c main_v102) :=
  arr_host V c

end Cert.KernelIdeal.Decode

end
-- ==== Proof.lean ====
/-
  Link scores of a two-layer graph convolution: the kernel program against its reference, over the extended reals.

  Both programs compute, for 1048576 candidate links over 100000 nodes, the inner product of the two ends' rows of
  an embedding Z. Z is two propagation layers: a layer multiplies the node features by a weight matrix, then sums,
  into each node, the rows of its in-neighbours (self-loops added) weighted by the inverse square roots of the two
  ends' degrees, and adds a bias; the positive part is taken between the layers. The reference forms the two
  products as whole matrix products and the scores as a sum over the feature axis of a product of two fetched row
  tables. The kernel program forms each product in a pipelined region, 5000 rows at a time, the features and the
  weights rounded to a shorter float format first, and the scores in a third region, 8192 links at a time;
  everything between the regions is the reference's own host arithmetic, operation for operation.

  At the extended reals a change of float format is the identity, a matrix product into a zero accumulator is the
  exact row-by-column sum and a lane sum is the exact finite sum, so each region's output array IS the reference's
  product (or decoder) of its two input arrays: every row block is a restriction of one whole-array function, and
  the blocks tile the array. The host arithmetic in between is carried as one named function on both sides and
  never opened; no algebraic law beyond the reading of the sums is needed, and the precondition is not used.

  The three frames: the two kernel programs' by the generated frame certificate, the reference's by its run. The
  idealization rewrote nothing. The value claim: the kernel program's run with the result buffer named at the fold
  of its seven segments, that fold read back to the link scores of the arguments, and the reference's run's term
  read as the same scores.
-/
import proofs.«169004_j79096117723242_1_alg».proof.Defs
import proofs.«169004_j79096117723242_1_alg».proof.Proof.Gen.Kernel
import proofs.«169004_j79096117723242_1_alg».proof.Proof.Gen.Kernel.Frame
import proofs.«169004_j79096117723242_1_alg».proof.Proof.Gen.KernelIdeal
import proofs.«169004_j79096117723242_1_alg».proof.Proof.Gen.KernelIdeal.Frame
import proofs.«169004_j79096117723242_1_alg».proof.Proof.Gen.ReferenceIdeal
import proofs.«169004_j79096117723242_1_alg».proof.Proof.Gen.ReferenceIdeal.Run
import proofs.«169004_j79096117723242_1_alg».proof.Proof.Gen.Pre_finite_inputs
import proofs.«169004_j79096117723242_1_alg».proof.Proof.KernelRun
import proofs.«169004_j79096117723242_1_alg».proof.Proof.Fold
import proofs.«169004_j79096117723242_1_alg».proof.Proof.RefValue
import proofs.«169004_j79096117723242_1_alg».proof.Proof.MatOne
import proofs.«169004_j79096117723242_1_alg».proof.Proof.MatTwo
import proofs.«169004_j79096117723242_1_alg».proof.Proof.Decode
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference program's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the extended reals both programs end with the link scores of the arguments: the kernel program through its
    three regions (each region's output array is the reference's product, or decoder, of its input arrays), the
    reference through its own run; the arguments agree. -/
theorem algebraic : Cert.algebraic_KernelIdeal_ReferenceIdeal := by
  intro m ρ m' ρ' _ hagree
  refine ⟨fun c => Cert.KernelIdeal.Glue.scores (F := Ideal) Cert.ReferenceIdeal.RefValue.prod1 Cert.ReferenceIdeal.RefValue.prod2
      Cert.ReferenceIdeal.RefValue.dec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result (F := Ideal) m ρ _ _ _
          Cert.KernelIdeal.MatOne.arr Cert.KernelIdeal.MatTwo.arr Cert.KernelIdeal.Decode.arr c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
